-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x32x32 : Shape := ⟨4, ![8, 16, 32, 32]⟩
abbrev S64x144 : Shape := ⟨2, ![64, 144]⟩
abbrev S_ : Shape := ⟨0, ![]⟩

class Facts : Prop where
  bcast_S_S8x16x32x32 : S_.BroadcastsInDim S8x16x32x32 (![] : Fin 0 → Fin S8x16x32x32.rank)
  reducesTo_S8x16x32x32_S_d0_1_2_3 : S8x16x32x32.ReducesTo [0, 1, 2, 3] S_
  h_S_ : 0 < S_.numel
  bcast_S_S64x144 : S_.BroadcastsInDim S64x144 (![] : Fin 0 → Fin S64x144.rank)
  reducesTo_S64x144_S_d0_1 : S64x144.ReducesTo [0, 1] S_
  reducesTo_S_S_d : S_.ReducesTo [] S_

variable [Facts]

def fn {F : FTy → Type} [FloatOps F] (main_arg0 : FVec F S8x16x32x32 .f32) (main_arg1 : FVec F S64x144 .f32) (main_arg2 : FVec F S_ .f32) : IVec S_ 1 :=
  let main_v0 : FVec F S8x16x32x32 .f32 := Host.absf main_arg0
  let main_cst : FVec F S_ .f32 := constant S_ .f32 0x7F800000#32
  let main_v1 : FVec F S8x16x32x32 .f32 := broadcastInDim S8x16x32x32 ![] bcast_S_S8x16x32x32 main_cst
  let main_v2 : IVec S8x16x32x32 1 := cmpf .olt main_v0 main_v1
  let main_c : IVec S_ 1 := constantI S_ 1 1#1
  let main_v3 : IVec S_ 1 := (fun x v => Host.reduce IntOp.andi x v reducesTo_S8x16x32x32_S_d0_1_2_3 h_S_) main_v2 main_c
  let main_v4 : FVec F S64x144 .f32 := Host.absf main_arg1
  let main_cst_0 : FVec F S_ .f32 := constant S_ .f32 0x7F800000#32
  let main_v5 : FVec F S64x144 .f32 := broadcastInDim S64x144 ![] bcast_S_S64x144 main_cst_0
  let main_v6 : IVec S64x144 1 := cmpf .olt main_v4 main_v5
  let main_c_1 : IVec S_ 1 := constantI S_ 1 1#1
  let main_v7 : IVec S_ 1 := (fun x v => Host.reduce IntOp.andi x v reducesTo_S64x144_S_d0_1 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  main_v12
-- ==== Kernel.lean ====
abbrev S8x16x32x32 : Shape := ⟨4, ![8, 16, 32, 32]⟩
abbrev S64x144 : Shape := ⟨2, ![64, 144]⟩
abbrev S_ : Shape := ⟨0, ![]⟩
abbrev S8x16x34x34 : Shape := ⟨4, ![8, 16, 34, 34]⟩
abbrev S8x16x1x32x32 : Shape := ⟨5, ![8, 16, 1, 32, 32]⟩
abbrev S8x16x9x32x32 : Shape := ⟨5, ![8, 16, 9, 32, 32]⟩
abbrev S8x144x1024 : Shape := ⟨3, ![8, 144, 1024]⟩
abbrev S1x1 : Shape := ⟨2, ![1, 1]⟩
abbrev S8x64x1024 : Shape := ⟨3, ![8, 64, 1024]⟩
abbrev S1x144x128 : Shape := ⟨3, ![1, 144, 128]⟩
abbrev S1x64x128 : Shape := ⟨3, ![1, 64, 128]⟩
abbrev S144x128 : Shape := ⟨2, ![144, 128]⟩
abbrev S64x144x1 : Shape := ⟨3, ![64, 144, 1]⟩
abbrev S64x144x128 : Shape := ⟨3, ![64, 144, 128]⟩
abbrev S64x128 : Shape := ⟨2, ![64, 128]⟩
abbrev S8x64x32x32 : Shape := ⟨4, ![8, 64, 32, 32]⟩

abbrev nBuf : Space → Nat
  | .hbm => 29
  | .vmem => 6
  | .smem => 0
  | _ => 0

abbrev bufTy : (tb : Table) → Fin (tcTables nBuf tb) → BufTy
  | .hbm, ⟨0, _⟩ => ⟨S8x16x32x32, .f32⟩
  | .hbm, ⟨1, _⟩ => ⟨S64x144, .f32⟩
  | .hbm, ⟨2, _⟩ => ⟨S_, .f32⟩
  | .hbm, ⟨3, _⟩ => ⟨S_, .i32⟩
  | .hbm, ⟨4, _⟩ => ⟨S_, .f32⟩
  | .hbm, ⟨5, _⟩ => ⟨S8x16x34x34, .f32⟩
  | .hbm, ⟨6, _⟩ => ⟨S8x16x32x32, .f32⟩
  | .hbm, ⟨7, _⟩ => ⟨S8x16x32x32, .f32⟩
  | .hbm, ⟨8, _⟩ => ⟨S8x16x32x32, .f32⟩
  | .hbm, ⟨9, _⟩ => ⟨S8x16x32x32, .f32⟩
  | .hbm, ⟨10, _⟩ => ⟨S8x16x32x32, .f32⟩
  | .hbm, ⟨11, _⟩ => ⟨S8x16x32x32, .f32⟩
  | .hbm, ⟨12, _⟩ => ⟨S8x16x32x32, .f32⟩
  | .hbm, ⟨13, _⟩ => ⟨S8x16x32x32, .f32⟩
  | .hbm, ⟨14, _⟩ => ⟨S8x16x32x32, .f32⟩
  | .hbm, ⟨15, _⟩ => ⟨S8x16x1x32x32, .f32⟩
  | .hbm, ⟨16, _⟩ => ⟨S8x16x1x32x32, .f32⟩
  | .hbm, ⟨17, _⟩ => ⟨S8x16x1x32x32, .f32⟩
  | .hbm, ⟨18, _⟩ => ⟨S8x16x1x32x32, .f32⟩
  | .hbm, ⟨19, _⟩ => ⟨S8x16x1x32x32, .f32⟩
  | .hbm, ⟨20, _⟩ => ⟨S8x16x1x32x32, .f32⟩
  | .hbm, ⟨21, _⟩ => ⟨S8x16x1x32x32, .f32⟩
  | .hbm, ⟨22, _⟩ => ⟨S8x16x1x32x32, .f32⟩
  | .hbm, ⟨23, _⟩ => ⟨S8x16x1x32x32, .f32⟩
  | .hbm, ⟨24, _⟩ => ⟨S8x16x9x32x32, .f32⟩
  | .hbm, ⟨25, _⟩ => ⟨S8x144x1024, .f32⟩
  | .hbm, ⟨26, _⟩ => ⟨S1x1, .f32⟩
  | .hbm, ⟨27, _⟩ => ⟨S8x64x1024, .f32⟩
  | .hbm, ⟨28, _⟩ => ⟨S8x64x32x32, .f32⟩
  | .local _ .vmem, ⟨0, _⟩ => ⟨S1x144x128, .f32⟩
  | .local _ .vmem, ⟨1, _⟩ => ⟨S1x144x128, .f32⟩
  | .local _ .vmem, ⟨2, _⟩ => ⟨S64x144, .f32⟩
  | .local _ .vmem, ⟨3, _⟩ => ⟨S1x1, .f32⟩
  | .local _ .vmem, ⟨4, _⟩ => ⟨S1x64x128, .f32⟩
  | .local _ .vmem, ⟨5, _⟩ => ⟨S1x64x128, .f32⟩
  | _, _ => ⟨S8x16x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x144x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  pads_S8x16x32x32_S8x16x34x34_000_000_110_110 : S8x16x32x32.Pads (![0, 0, 1, 1] : Fin 4 → Nat) ![0, 0, 1, 1] ![0, 0, 0, 0] S8x16x34x34
  h_S_ : 0 < S_.numel
  slices_S8x16x34x34_S8x16x32x32_0_0_0_0 : S8x16x34x34.Slices ![0, 0, 0, 0] S8x16x32x32
  slices_S8x16x34x34_S8x16x32x32_0_0_0_1 : S8x16x34x34.Slices ![0, 0, 0, 1] S8x16x32x32
  slices_S8x16x34x34_S8x16x32x32_0_0_0_2 : S8x16x34x34.Slices ![0, 0, 0, 2] S8x16x32x32
  slices_S8x16x34x34_S8x16x32x32_0_0_1_0 : S8x16x34x34.Slices ![0, 0, 1, 0] S8x16x32x32
  slices_S8x16x34x34_S8x16x32x32_0_0_1_1 : S8x16x34x34.Slices ![0, 0, 1, 1] S8x16x32x32
  slices_S8x16x34x34_S8x16x32x32_0_0_1_2 : S8x16x34x34.Slices ![0, 0, 1, 2] S8x16x32x32
  slices_S8x16x34x34_S8x16x32x32_0_0_2_0 : S8x16x34x34.Slices ![0, 0, 2, 0] S8x16x32x32
  slices_S8x16x34x34_S8x16x32x32_0_0_2_1 : S8x16x34x34.Slices ![0, 0, 2, 1] S8x16x32x32
  slices_S8x16x34x34_S8x16x32x32_0_0_2_2 : S8x16x34x34.Slices ![0, 0, 2, 2] S8x16x32x32
  bcast_S8x16x32x32_S8x16x1x32x32_0_1_3_4 : S8x16x32x32.BroadcastsInDim S8x16x1x32x32 (![0, 1, 3, 4] : Fin 4 → Fin S8x16x1x32x32.rank)
  concatenates_S8x16x1x32x32_S8x16x1x32x32_S8x16x1x32x32_S8x16x1x32x32_S8x16x1x32x32_S8x16x1x32x32_S8x16x1x32x32_S8x16x1x32x32_S8x16x1x32x32_S8x16x9x32x32_d2 : Shape.Concatenates [S8x16x1x32x32, S8x16x1x32x32, S8x16x1x32x32, S8x16x1x32x32, S8x16x1x32x32, S8x16x1x32x32, S8x16x1x32x32, S8x16x1x32x32, S8x16x1x32x32] S8x16x9x32x32 2
  shapeCasts_S8x16x9x32x32_S8x144x1024 : S8x16x9x32x32.ShapeCasts S8x144x1024
  shapeCasts_S_S1x1 : S_.ShapeCasts S1x1
  inb_S1x144x128_S1x144x128_0_0_0 : ∀ a, (![0, 0, 0] : Fin 3 → Nat) a + S1x144x128.size a ≤ S1x144x128.size a
  h_S1x144x128 : 0 < S1x144x128.numel
  shapeCasts_S1x144x128_S144x128 : S1x144x128.ShapeCasts S144x128
  inb_S64x144_S64x144_0_0 : ∀ a, (![0, 0] : Fin 2 → Nat) a + S64x144.size a ≤ S64x144.size a
  h_S64x144 : 0 < S64x144.numel
  shapeCasts_S144x128_S1x144x128 : S144x128.ShapeCasts S1x144x128
  shapeCasts_S64x144_S64x144x1 : S64x144.ShapeCasts S64x144x1
  broadcasts_S1x144x128_S64x144x128 : S1x144x128.Broadcasts S64x144x128
  broadcasts_S64x144x1_S64x144x128 : S64x144x1.Broadcasts S64x144x128
  reduces_S64x144x128_S64x128 : S64x144x128.Reduces [1] S64x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  shapeCasts_S64x128_S1x64x128 : S64x128.ShapeCasts S1x64x128
  shapeCasts_S8x64x1024_S8x64x32x32 : S8x64x1024.ShapeCasts S8x64x32x32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x144x128.size a ≤ S8x144x1024.size a
  hwx0_0 : ∀ i : grid0.Coords, EltTy.bits .f32 = 32 ∨ (Rect.block (s := S8x144x1024) S1x144x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x144.size a ≤ S64x144.size a
  hwx0_1 : ∀ i : grid0.Coords, EltTy.bits .f32 = 32 ∨ (Rect.block (s := S64x144) S64x144.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x128.size a ≤ S8x64x1024.size a
  hwx0_3 : ∀ i : grid0.Coords, EltTy.bits .f32 = 32 ∨ (Rect.block (s := S8x64x1024) S1x64x128.size (cc0_transform_3 i) (hinb0_3 i)).WholeWords (EltTy.packing .f32)

variable [Facts₀]

abbrev win0_0 : Pipeline.Window sig grid0 :=
  Pipeline.Window.ofSpec (Memref.whole main_v20) S1x144x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x144.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x64x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x16x32x32 : Shape := ⟨4, ![8, 16, 32, 32]⟩
abbrev S64x144 : Shape := ⟨2, ![64, 144]⟩
abbrev S_ : Shape := ⟨0, ![]⟩
abbrev S8x16x34x34 : Shape := ⟨4, ![8, 16, 34, 34]⟩
abbrev S8x16x1x32x32 : Shape := ⟨5, ![8, 16, 1, 32, 32]⟩
abbrev S8x16x9x32x32 : Shape := ⟨5, ![8, 16, 9, 32, 32]⟩
abbrev S8x144x1024 : Shape := ⟨3, ![8, 144, 1024]⟩
abbrev S8x1x144x1024 : Shape := ⟨4, ![8, 1, 144, 1024]⟩
abbrev S1x64x144x1 : Shape := ⟨4, ![1, 64, 144, 1]⟩
abbrev S8x64x144x1024 : Shape := ⟨4, ![8, 64, 144, 1024]⟩
abbrev S8x64x1024 : Shape := ⟨3, ![8, 64, 1024]⟩
abbrev S8x64x32x32 : Shape := ⟨4, ![8, 64, 32, 32]⟩

abbrev nBuf : Space → Nat
  | .hbm => 89
  | .vmem => 0
  | .smem => 0
  | _ => 0

abbrev bufTy : (tb : Table) → Fin (tcTables nBuf tb) → BufTy
  | .hbm, ⟨0, _⟩ => ⟨S8x16x32x32, .f32⟩
  | .hbm, ⟨1, _⟩ => ⟨S64x144, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S64x144, .f32⟩
  | .hbm, ⟨7, _⟩ => ⟨S64x144, .f32⟩
  | .hbm, ⟨8, _⟩ => ⟨S_, .f32⟩
  | .hbm, ⟨9, _⟩ => ⟨S64x144, .f32⟩
  | .hbm, ⟨10, _⟩ => ⟨S64x144, .f32⟩
  | .hbm, ⟨11, _⟩ => ⟨S_, .i32⟩
  | .hbm, ⟨12, _⟩ => ⟨S_, .f32⟩
  | .hbm, ⟨13, _⟩ => ⟨S8x16x34x34, .f32⟩
  | .hbm, ⟨14, _⟩ => ⟨S8x16x32x32, .f32⟩
  | .hbm, ⟨15, _⟩ => ⟨S8x16x32x32, .f32⟩
  | .hbm, ⟨16, _⟩ => ⟨S8x16x32x32, .f32⟩
  | .hbm, ⟨17, _⟩ => ⟨S8x16x32x32, .f32⟩
  | .hbm, ⟨18, _⟩ => ⟨S8x16x32x32, .f32⟩
  | .hbm, ⟨19, _⟩ => ⟨S8x16x32x32, .f32⟩
  | .hbm, ⟨20, _⟩ => ⟨S8x16x32x32, .f32⟩
  | .hbm, ⟨21, _⟩ => ⟨S8x16x32x32, .f32⟩
  | .hbm, ⟨22, _⟩ => ⟨S8x16x32x32, .f32⟩
  | .hbm, ⟨23, _⟩ => ⟨S8x16x1x32x32, .f32⟩
  | .hbm, ⟨24, _⟩ => ⟨S8x16x1x32x32, .f32⟩
  | .hbm, ⟨25, _⟩ => ⟨S8x16x1x32x32, .f32⟩
  | .hbm, ⟨26, _⟩ => ⟨S8x16x1x32x32, .f32⟩
  | .hbm, ⟨27, _⟩ => ⟨S8x16x1x32x32, .f32⟩
  | .hbm, ⟨28, _⟩ => ⟨S8x16x1x32x32, .f32⟩
  | .hbm, ⟨29, _⟩ => ⟨S8x16x1x32x32, .f32⟩
  | .hbm, ⟨30, _⟩ => ⟨S8x16x1x32x32, .f32⟩
  | .hbm, ⟨31, _⟩ => ⟨S8x16x1x32x32, .f32⟩
  | .hbm, ⟨32, _⟩ => ⟨S8x16x9x32x32, .f32⟩
  | .hbm, ⟨33, _⟩ => ⟨S8x144x1024, .f32⟩
  | .hbm, ⟨34, _⟩ => ⟨S8x1x144x1024, .f32⟩
  | .hbm, ⟨35, _⟩ => ⟨S1x64x144x1, .f32⟩
  | .hbm, ⟨36, _⟩ => ⟨S8x64x144x1024, .f32⟩
  | .hbm, ⟨37, _⟩ => ⟨S8x64x144x1024, .f32⟩
  | .hbm, ⟨38, _⟩ => ⟨S8x64x144x1024, .f32⟩
  | .hbm, ⟨39, _⟩ => ⟨S_, .f32⟩
  | .hbm, ⟨40, _⟩ => ⟨S8x64x144x1024, .f32⟩
  | .hbm, ⟨41, _⟩ => ⟨S8x64x144x1024, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S8x64x144x1024, .f32⟩
  | .hbm, ⟨46, _⟩ => ⟨S8x64x144x1024, .f32⟩
  | .hbm, ⟨47, _⟩ => ⟨S_, .f32⟩
  | .hbm, ⟨48, _⟩ => ⟨S8x64x144x1024, .f32⟩
  | .hbm, ⟨49, _⟩ => ⟨S8x64x144x1024, .f32⟩
  | .hbm, ⟨50, _⟩ => ⟨S8x64x144x1024, .f32⟩
  | .hbm, ⟨51, _⟩ => ⟨S8x64x144x1024, .f32⟩
  | .hbm, ⟨52, _⟩ => ⟨S8x64x144x1024, .f32⟩
  | .hbm, ⟨53, _⟩ => ⟨S8x64x144x1024, .f32⟩
  | .hbm, ⟨54, _⟩ => ⟨S8x64x144x1024, .f32⟩
  | .hbm, ⟨55, _⟩ => ⟨S8x64x144x1024, .f32⟩
  | .hbm, ⟨56, _⟩ => ⟨S_, .f32⟩
  | .hbm, ⟨57, _⟩ => ⟨S8x64x144x1024, .f32⟩
  | .hbm, ⟨58, _⟩ => ⟨S8x64x144x1024, .f32⟩
  | .hbm, ⟨59, _⟩ => ⟨S_, .f32⟩
  | .hbm, ⟨60, _⟩ => ⟨S8x64x144x1024, .f32⟩
  | .hbm, ⟨61, _⟩ => ⟨S8x64x144x1024, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S8x64x144x1024, .f32⟩
  | .hbm, ⟨66, _⟩ => ⟨S8x64x144x1024, .f32⟩
  | .hbm, ⟨67, _⟩ => ⟨S_, .f32⟩
  | .hbm, ⟨68, _⟩ => ⟨S8x64x144x1024, .f32⟩
  | .hbm, ⟨69, _⟩ => ⟨S8x64x144x1024, .f32⟩
  | .hbm, ⟨70, _⟩ => ⟨S8x64x144x1024, .f32⟩
  | .hbm, ⟨71, _⟩ => ⟨S8x64x144x1024, .f32⟩
  | .hbm, ⟨72, _⟩ => ⟨S8x64x144x1024, .f32⟩
  | .hbm, ⟨73, _⟩ => ⟨S8x64x144x1024, .f32⟩
  | .hbm, ⟨74, _⟩ => ⟨S_, .f32⟩
  | .hbm, ⟨75, _⟩ => ⟨S8x64x144x1024, .f32⟩
  | .hbm, ⟨76, _⟩ => ⟨S8x64x144x1024, .f32⟩
  | .hbm, ⟨77, _⟩ => ⟨S_, .f32⟩
  | .hbm, ⟨78, _⟩ => ⟨S_, .f32⟩
  | .hbm, ⟨79, _⟩ => ⟨S8x64x144x1024, .f32⟩
  | .hbm, ⟨80, _⟩ => ⟨S8x64x144x1024, .f32⟩
  | .hbm, ⟨81, _⟩ => ⟨S_, .f32⟩
  | .hbm, ⟨82, _⟩ => ⟨S8x64x1024, .f32⟩
  | .hbm, ⟨83, _⟩ => ⟨S_, .f32⟩
  | .hbm, ⟨84, _⟩ => ⟨S8x64x1024, .f32⟩
  | .hbm, ⟨85, _⟩ => ⟨S8x64x1024, .f32⟩
  | .hbm, ⟨86, _⟩ => ⟨S8x64x1024, .f32⟩
  | .hbm, ⟨87, _⟩ => ⟨S8x64x1024, .f32⟩
  | .hbm, ⟨88, _⟩ => ⟨S8x64x32x32, .f32⟩
  | _, _ => ⟨S8x16x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_c : Ref sig .tc := ⟨.hbm, 11, rfl⟩
abbrev main_call1_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_1 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_cst_3 : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_4 : Ref sig .tc := ⟨.hbm, 56, rfl⟩
abbrev main_v36 : Ref sig .tc := ⟨.hbm, 57, rfl⟩
abbrev main_v37 : Ref sig .tc := ⟨.hbm, 58, rfl⟩
abbrev main_cst_5 : Ref sig .tc := ⟨.hbm, 59, rfl⟩
abbrev main_v38 : Ref sig .tc := ⟨.hbm, 60, rfl⟩
abbrev main_v39 : Ref sig .tc := ⟨.hbm, 61, rfl⟩
abbrev main_cst_6 : Ref sig .tc := ⟨.hbm, 62, rfl⟩
abbrev main_cst_7 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_8 : Ref sig .tc := ⟨.hbm, 74, rfl⟩
abbrev main_v45 : Ref sig .tc := ⟨.hbm, 75, rfl⟩
abbrev main_v46 : Ref sig .tc := ⟨.hbm, 76, rfl⟩
abbrev main_cst_9 : Ref sig .tc := ⟨.hbm, 77, rfl⟩
abbrev main_call4_v0 : Ref sig .tc := ⟨.hbm, 78, rfl⟩
abbrev main_call4_v1 : Ref sig .tc := ⟨.hbm, 79, rfl⟩
abbrev main_v47 : Ref sig .tc := ⟨.hbm, 80, rfl⟩
abbrev main_cst_10 : Ref sig .tc := ⟨.hbm, 81, rfl⟩
abbrev main_v48 : Ref sig .tc := ⟨.hbm, 82, rfl⟩
abbrev main_cst_11 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩

abbrev nD : Nat := 1
abbrev τ : Topo := Topo.v7x

variable {F : FTy → Type} [FloatOps F]

class Facts₀ : Prop where
  bcast_S_S64x144 : S_.BroadcastsInDim S64x144 (![] : Fin 0 → Fin S64x144.rank)
  pads_S8x16x32x32_S8x16x34x34_000_000_110_110 : S8x16x32x32.Pads (![0, 0, 1, 1] : Fin 4 → Nat) ![0, 0, 1, 1] ![0, 0, 0, 0] S8x16x34x34
  h_S_ : 0 < S_.numel
  slices_S8x16x34x34_S8x16x32x32_0_0_0_0 : S8x16x34x34.Slices ![0, 0, 0, 0] S8x16x32x32
  slices_S8x16x34x34_S8x16x32x32_0_0_0_1 : S8x16x34x34.Slices ![0, 0, 0, 1] S8x16x32x32
  slices_S8x16x34x34_S8x16x32x32_0_0_0_2 : S8x16x34x34.Slices ![0, 0, 0, 2] S8x16x32x32
  slices_S8x16x34x34_S8x16x32x32_0_0_1_0 : S8x16x34x34.Slices ![0, 0, 1, 0] S8x16x32x32
  slices_S8x16x34x34_S8x16x32x32_0_0_1_1 : S8x16x34x34.Slices ![0, 0, 1, 1] S8x16x32x32
  slices_S8x16x34x34_S8x16x32x32_0_0_1_2 : S8x16x34x34.Slices ![0, 0, 1, 2] S8x16x32x32
  slices_S8x16x34x34_S8x16x32x32_0_0_2_0 : S8x16x34x34.Slices ![0, 0, 2, 0] S8x16x32x32
  slices_S8x16x34x34_S8x16x32x32_0_0_2_1 : S8x16x34x34.Slices ![0, 0, 2, 1] S8x16x32x32
  slices_S8x16x34x34_S8x16x32x32_0_0_2_2 : S8x16x34x34.Slices ![0, 0, 2, 2] S8x16x32x32
  bcast_S8x16x32x32_S8x16x1x32x32_0_1_3_4 : S8x16x32x32.BroadcastsInDim S8x16x1x32x32 (![0, 1, 3, 4] : Fin 4 → Fin S8x16x1x32x32.rank)
  concatenates_S8x16x1x32x32_S8x16x1x32x32_S8x16x1x32x32_S8x16x1x32x32_S8x16x1x32x32_S8x16x1x32x32_S8x16x1x32x32_S8x16x1x32x32_S8x16x1x32x32_S8x16x9x32x32_d2 : Shape.Concatenates [S8x16x1x32x32, S8x16x1x32x32, S8x16x1x32x32, S8x16x1x32x32, S8x16x1x32x32, S8x16x1x32x32, S8x16x1x32x32, S8x16x1x32x32, S8x16x1x32x32] S8x16x9x32x32 2
  shapeCasts_S8x16x9x32x32_S8x144x1024 : S8x16x9x32x32.ShapeCasts S8x144x1024
  bcast_S8x144x1024_S8x1x144x1024_0_2_3 : S8x144x1024.BroadcastsInDim S8x1x144x1024 (![0, 2, 3] : Fin 3 → Fin S8x1x144x1024.rank)
  bcast_S64x144_S1x64x144x1_1_2 : S64x144.BroadcastsInDim S1x64x144x1 (![1, 2] : Fin 2 → Fin S1x64x144x1.rank)
  bcast_S8x1x144x1024_S8x64x144x1024_0_1_2_3 : S8x1x144x1024.BroadcastsInDim S8x64x144x1024 (![0, 1, 2, 3] : Fin 4 → Fin S8x64x144x1024.rank)
  bcast_S1x64x144x1_S8x64x144x1024_0_1_2_3 : S1x64x144x1.BroadcastsInDim S8x64x144x1024 (![0, 1, 2, 3] : Fin 4 → Fin S8x64x144x1024.rank)
  bcast_S_S8x64x144x1024 : S_.BroadcastsInDim S8x64x144x1024 (![] : Fin 0 → Fin S8x64x144x1024.rank)
  reducesTo_S8x64x144x1024_S8x64x1024_d2 : S8x64x144x1024.ReducesTo [2] S8x64x1024
  bcast_S_S8x64x1024 : S_.BroadcastsInDim S8x64x1024 (![] : Fin 0 → Fin S8x64x1024.rank)
  shapeCasts_S8x64x1024_S8x64x32x32 : S8x64x1024.ShapeCasts S8x64x32x32

variable [Facts₀]

class Facts : Prop extends Facts₀ where

variable [Facts]
-- ==== Proof.BitsRegion.lean ====
/-
  The run of `Kernel`'s @main around its one launch, and its frame.

  @main is three stretches of host operations (the zero constant; the padding of `x` by one zero row and column on
  each side of the two spatial axes; the nine shifted 32×32 windows of the padded array, each given a unit axis,
  joined along it and flattened to the [8, 144, 1024] array of unfolded activations, and the scale as a [1, 1]
  array), the launch over the 8 × 8 grid, and one reshape of the launch's [8, 64, 1024] result to [8, 64, 32, 32].

  At grid point (b, l) the body reads block (b, 0, l) of the unfolded activations — 144 rows of 128 columns —, the whole
  [64, 144] threshold matrix and the one scale entry, and writes block (b, 0, l) of the result — 64 rows of 128 columns —
  in ONE store that covers it. So what the output block holds after the body is a function of the three input blocks
  alone (`blockOut`), each input block is left as it was, and nothing else is touched: the launch theorem for such
  bodies (the frame run around a region, with host lines after it) then gives the whole run, every array of the launch
  at what the body wrote block by block, every other buffer as the host lines left it, and the three arguments as
  launched.
-/
import proofs.«169805_j77618648973839_1_alg».proof.Proof.Gen.Kernel.Launch
import proofs.«169805_j77618648973839_1_alg».proof.Proof.Gen.Kernel.Skeleton
import proofs.«169805_j77618648973839_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the launch -/

/-- The contents of core `c`'s buffers when the launch is reached: the launch memory after the three stretches of host
    operations before it. -/
abbrev V0 (c : Dev nD) : Valuation τ sig (Elt F) :=
  StableHlo.after (List.flatten [hostOps0, hostOps0_1, hostOps0_2]) (fun b => m (c, b))
/-- The same, read at a buffer of the core. -/
abbrev V (c : Dev nD) (b : Ref sig .tc) : Buf (Elt F) ((c : Thread nD τ).loc b) := V0 m c (Proc.devRef .tc b)

/-- No host operation of @main allocates: each writes a buffer the signature declares. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the launch, the launch, and the reshape after it: it reduces to the launch
    continued by the reshape, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The reshape after the launch touches only the launch's arrays and the buffers that bypass it. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes none of the launch's four arrays: its result is the [8, 64, 32, 32] buffer, which is none of them. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-! ## The arguments are written by no host operation -/

section Args
variable (a : Ref sig .tc)

/-- A buffer that no host operation before the launch writes is found by the launch as launched. Used at the three
    arguments. -/
theorem V_of_unwritten
    (h : (List.flatten [hostOps0, hostOps0_1, hostOps0_2] : List (HloOp τ sig (Elt F))).Forall fun op => Proc.devRef .tc a ∉ op.writes)
    (c : Dev nD) : V m c a = m ((c : Thread nD τ).loc a) :=
  StableHlo.after_of_forall_not_mem (b := Proc.devRef .tc a) _ _ (List.forall_iff_forall_mem.mp h)
end Args

theorem prefix_keeps_arg0 : (List.flatten [hostOps0, hostOps0_1, hostOps0_2] : List (HloOp τ sig (Elt F))).Forall
    fun op => Proc.devRef .tc main_arg0 ∉ op.writes := by
  simp only [hostOps0, hostOps0_1, hostOps0_2, List.flatten_cons, List.flatten_nil, List.append_nil, List.cons_append,
    List.nil_append, List.Forall, StableHlo.nullary_writes, StableHlo.unary_writes, StableHlo.binary_writes,
    StableHlo.reshape_writes, StableHlo.nary_writes, Finset.mem_singleton]
  repeat' apply And.intro
  all_goals exact StableHlo.devRef_ne_of_ne (by decide)
theorem prefix_keeps_arg1 : (List.flatten [hostOps0, hostOps0_1, hostOps0_2] : List (HloOp τ sig (Elt F))).Forall
    fun op => Proc.devRef .tc main_arg1 ∉ op.writes := by
  simp only [hostOps0, hostOps0_1, hostOps0_2, List.flatten_cons, List.flatten_nil, List.append_nil, List.cons_append,
    List.nil_append, List.Forall, StableHlo.nullary_writes, StableHlo.unary_writes, StableHlo.binary_writes,
    StableHlo.reshape_writes, StableHlo.nary_writes, Finset.mem_singleton]
  repeat' apply And.intro
  all_goals exact StableHlo.devRef_ne_of_ne (by decide)
theorem prefix_keeps_arg2 : (List.flatten [hostOps0, hostOps0_1, hostOps0_2] : List (HloOp τ sig (Elt F))).Forall
    fun op => Proc.devRef .tc main_arg2 ∉ op.writes := by
  simp only [hostOps0, hostOps0_1, hostOps0_2, List.flatten_cons, List.flatten_nil, List.append_nil, List.cons_append,
    List.nil_append, List.Forall, StableHlo.nullary_writes, StableHlo.unary_writes, StableHlo.binary_writes,
    StableHlo.reshape_writes, StableHlo.nary_writes, Finset.mem_singleton]
  repeat' apply And.intro
  all_goals exact StableHlo.devRef_ne_of_ne (by decide)

theorem V_main_arg0 (c : Dev nD) : V m c main_arg0 = m ((c : Thread nD τ).loc main_arg0) := V_of_unwritten m main_arg0 prefix_keeps_arg0 c
theorem V_main_arg1 (c : Dev nD) : V m c main_arg1 = m ((c : Thread nD τ).loc main_arg1) := V_of_unwritten m main_arg1 prefix_keeps_arg1 c
theorem V_main_arg2 (c : Dev nD) : V m c main_arg2 = m ((c : Thread nD τ).loc main_arg2) := V_of_unwritten m main_arg2 prefix_keeps_arg2 c

/-- The reshape after the launch writes neither `x` nor the scale, and neither is an array of the launch: each ends as
    launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-! ## The blocks -/

/-- Window `w`'s block at grid point `t`, cut out of its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, whether the point fetches it or not (the thresholds
    and the scale are fetched once, at the first point, and their block never moves), for any proof data over the
    arrays `V` whose body leaves the input blocks in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's four accesses, and what it leaves in the output block -/

abbrev rVg : Rect S1x144x128 := Rect.unit (s := S1x144x128) ![0, 0, 0] S1x144x128.size inb_S1x144x128_S1x144x128_0_0_0
abbrev rTheta : Rect S64x144 := Rect.unit (s := S64x144) ![0, 0] S64x144.size inb_S64x144_S64x144_0_0
abbrev rScale : Rect S1x1 := Rect.unit (s := S1x1) ![0, 0] S1x1.size inb_S1x1_S1x1_0_0
abbrev rOut : Rect S1x64x128 := Rect.unit (s := S1x64x128) ![0, 0, 0] S1x64x128.size inb_S1x64x128_S1x64x128_0_0_0

/-- The output block after the body, from the three input blocks: its one store — the sum over the 144 rows, scaled —
    laid over whatever the buffer held, which the store covers. -/
def blockOut (x0 : Vec F S1x144x128 .f32) (x1 : Vec F S64x144 .f32) (x2 : Vec F S1x1 .f32) : Vec F S1x64x128 .f32 :=
  View.canon [⟨rOut, k0_pay1 (k0_pay2 (View.ld x0 rVg) (View.ld x1 rTheta)) (View.ld x2 rScale)⟩]

/-- The one store is of the whole block. -/
theorem blockOut_cover (p0 : Vec F S1x64x128 .f32) (y : S1x64x128.Idx) :
    ∃ pc ∈ ([⟨rOut, p0⟩] : List (View.Piece (Elt F) S1x64x128 .f32)), y ∈ pc.1.set :=
  View.cover_of_tiled [⟨rOut, p0⟩] S1x64x128.size (by rfl) y

/-! ## The body's triple -/

set_option maxHeartbeats 1000000 in
/-- The body on whole buffers — the three inputs' at contents `x0 x1 x2`, the output's at anything — runs to its end
    leaving the inputs' as they were and the output's at `blockOut x0 x1 x2`. (It also loads the output buffer before
    storing into it; the loaded value is used nowhere.) -/
theorem sound_kernel (c : Dev nD) (E : Set ℕ) (i : grid0.Coords)
    (arg2 : Memref sig .tc .vmem S1x144x128 .f32) (harg2 : arg2.IsWhole) (arg3 : Memref sig .tc .vmem S64x144 .f32) (harg3 : arg3.IsWhole)
    (arg4 : Memref sig .tc .vmem S1x1 .f32) (harg4 : arg4.IsWhole) (arg5 : Memref sig .tc .vmem S1x64x128 .f32) (harg5 : arg5.IsWhole)
    (x0 : Vec F S1x144x128 .f32) (x1 : Vec F S64x144 .f32) (x2 : Vec F S1x1 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (blockOut x0 x1 x2)) -∗ K ⟨⟩))
      ⊢ wp frame (wpE (defs₀ (F := F)) Variants.none c none) E (cc0__ekv_kernel i arg2 harg2 arg3 harg3 arg4 harg4 arg5 harg5) K := by
  simp only [cc0__ekv_kernel_eq_skeleton]; unfold cc0__ekv_kernel_skel
  simp only [k0_part1_eq_skeleton]
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (blockOut_cover _)

/-! ## The proof data of the launch -/

/-- On core `c`: the arrays as the launch finds them; after the body at point `t` each input's buffer at its block and
    the output's at `blockOut` of the three input blocks; nothing kept between points but what the body never touches;
    nothing owed; whole buffers. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blockOut (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_out (c : Dev nD) (t : Fin cfg0.N) :
    (dats m 0 c).after 3 t = blockOut (iblk m c 0 t) (iblk m c 1 t) (iblk m c 2 t) := by dsimp only [dats]

theorem before0 (c : Dev nD) (t : Fin cfg0.N) (d) : (dats m 0 c).before 0 t d = iblk m c 0 t :=
  before_in0 m (dats m 0 c) (A_eq m c 0) (after_in0 m c) t d
theorem before1 (c : Dev nD) (t : Fin cfg0.N) (d) : (dats m 0 c).before 1 t d = iblk m c 1 t :=
  before_in1 m (dats m 0 c) (A_eq m c 1) (after_in1 m c) t d
theorem before2 (c : Dev nD) (t : Fin cfg0.N) (d) : (dats m 0 c).before 2 t d = iblk m c 2 t :=
  before_in2 m (dats m 0 c) (A_eq m c 2) (after_in2 m c) t d

/-! ## The body at a grid point -/

/-- What the body is handed at point `t`: the invariant, nothing owed, and each window's current buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: its input buffers hold the point's blocks, so the triple applies; the invariant and the
    owed-nothing pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after_in0, after_in1, after_in2, after_out]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run, and the frame -/

set_option backward.isDefEq.respectTransparency.types false in
/-- From any memory with zero counters every weakly fair execution of @main terminates, nothing faulting, with each array
    of the launch at what the proof data computes (an input as found, the output overwritten block by block by what the
    body left) and every other buffer as the reshape after the launch leaves it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The three arguments end as launched: `x` and the scale are no array of the launch and no host operation writes
    them; the thresholds are an input array of the launch, which ends as found, and no host operation writes it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m (dats m) c),
     ((h c).1 1).trans ((((dats m) 0 c).arrAt_in 1 rfl _).trans ((A_eq m c 1).trans (V_main_arg1 m c))),
     ((h c).2 main_arg2 (Pipeline.mem_restRefs_of main_arg2 (by decide) (by decide))).trans (W_main_arg2 m (dats m) c)⟩) (run_main m ρ)

end Cert.Kernel.Region

end
-- ==== Proof.IdealRegion.lean ====
/-
  The run of `KernelIdeal`'s @main around its one launch, and its frame.

  @main is three stretches of host operations (the zero constant; the padding of `x` by one zero row and column on
  each side of the two spatial axes; the nine shifted 32×32 windows of the padded array, each given a unit axis,
  joined along it and flattened to the [8, 144, 1024] array of unfolded activations, and the scale as a [1, 1]
  array), the launch over the 8 × 8 grid, and one reshape of the launch's [8, 64, 1024] result to [8, 64, 32, 32].

  At grid point (b, l) the body reads block (b, 0, l) of the unfolded activations — 144 rows of 128 columns —, the whole
  [64, 144] threshold matrix and the one scale entry, and writes block (b, 0, l) of the result — 64 rows of 128 columns —
  in ONE store that covers it. So what the output block holds after the body is a function of the three input blocks
  alone (`blockOut`), each input block is left as it was, and nothing else is touched: the launch theorem for such
  bodies (the frame run around a region, with host lines after it) then gives the whole run, every array of the launch
  at what the body wrote block by block, every other buffer as the host lines left it, and the three arguments as
  launched.
-/
import proofs.«169805_j77618648973839_1_alg».proof.Proof.Gen.KernelIdeal.Launch
import proofs.«169805_j77618648973839_1_alg».proof.Proof.Gen.KernelIdeal.Skeleton
import proofs.«169805_j77618648973839_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the launch -/

/-- The contents of core `c`'s buffers when the launch is reached: the launch memory after the three stretches of host
    operations before it. -/
abbrev V0 (c : Dev nD) : Valuation τ sig (Elt F) :=
  StableHlo.after (List.flatten [hostOps0, hostOps0_1, hostOps0_2]) (fun b => m (c, b))
/-- The same, read at a buffer of the core. -/
abbrev V (c : Dev nD) (b : Ref sig .tc) : Buf (Elt F) ((c : Thread nD τ).loc b) := V0 m c (Proc.devRef .tc b)

/-- No host operation of @main allocates: each writes a buffer the signature declares. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the launch, the launch, and the reshape after it: it reduces to the launch
    continued by the reshape, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The reshape after the launch touches only the launch's arrays and the buffers that bypass it. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes none of the launch's four arrays: its result is the [8, 64, 32, 32] buffer, which is none of them. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-! ## The arguments are written by no host operation -/

section Args
variable (a : Ref sig .tc)

/-- A buffer that no host operation before the launch writes is found by the launch as launched. Used at the three
    arguments. -/
theorem V_of_unwritten
    (h : (List.flatten [hostOps0, hostOps0_1, hostOps0_2] : List (HloOp τ sig (Elt F))).Forall fun op => Proc.devRef .tc a ∉ op.writes)
    (c : Dev nD) : V m c a = m ((c : Thread nD τ).loc a) :=
  StableHlo.after_of_forall_not_mem (b := Proc.devRef .tc a) _ _ (List.forall_iff_forall_mem.mp h)
end Args

theorem prefix_keeps_arg0 : (List.flatten [hostOps0, hostOps0_1, hostOps0_2] : List (HloOp τ sig (Elt F))).Forall
    fun op => Proc.devRef .tc main_arg0 ∉ op.writes := by
  simp only [hostOps0, hostOps0_1, hostOps0_2, List.flatten_cons, List.flatten_nil, List.append_nil, List.cons_append,
    List.nil_append, List.Forall, StableHlo.nullary_writes, StableHlo.unary_writes, StableHlo.binary_writes,
    StableHlo.reshape_writes, StableHlo.nary_writes, Finset.mem_singleton]
  repeat' apply And.intro
  all_goals exact StableHlo.devRef_ne_of_ne (by decide)
theorem prefix_keeps_arg1 : (List.flatten [hostOps0, hostOps0_1, hostOps0_2] : List (HloOp τ sig (Elt F))).Forall
    fun op => Proc.devRef .tc main_arg1 ∉ op.writes := by
  simp only [hostOps0, hostOps0_1, hostOps0_2, List.flatten_cons, List.flatten_nil, List.append_nil, List.cons_append,
    List.nil_append, List.Forall, StableHlo.nullary_writes, StableHlo.unary_writes, StableHlo.binary_writes,
    StableHlo.reshape_writes, StableHlo.nary_writes, Finset.mem_singleton]
  repeat' apply And.intro
  all_goals exact StableHlo.devRef_ne_of_ne (by decide)
theorem prefix_keeps_arg2 : (List.flatten [hostOps0, hostOps0_1, hostOps0_2] : List (HloOp τ sig (Elt F))).Forall
    fun op => Proc.devRef .tc main_arg2 ∉ op.writes := by
  simp only [hostOps0, hostOps0_1, hostOps0_2, List.flatten_cons, List.flatten_nil, List.append_nil, List.cons_append,
    List.nil_append, List.Forall, StableHlo.nullary_writes, StableHlo.unary_writes, StableHlo.binary_writes,
    StableHlo.reshape_writes, StableHlo.nary_writes, Finset.mem_singleton]
  repeat' apply And.intro
  all_goals exact StableHlo.devRef_ne_of_ne (by decide)

theorem V_main_arg0 (c : Dev nD) : V m c main_arg0 = m ((c : Thread nD τ).loc main_arg0) := V_of_unwritten m main_arg0 prefix_keeps_arg0 c
theorem V_main_arg1 (c : Dev nD) : V m c main_arg1 = m ((c : Thread nD τ).loc main_arg1) := V_of_unwritten m main_arg1 prefix_keeps_arg1 c
theorem V_main_arg2 (c : Dev nD) : V m c main_arg2 = m ((c : Thread nD τ).loc main_arg2) := V_of_unwritten m main_arg2 prefix_keeps_arg2 c

/-- The reshape after the launch writes neither `x` nor the scale, and neither is an array of the launch: each ends as
    launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-! ## The blocks -/

/-- Window `w`'s block at grid point `t`, cut out of its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, whether the point fetches it or not (the thresholds
    and the scale are fetched once, at the first point, and their block never moves), for any proof data over the
    arrays `V` whose body leaves the input blocks in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's four accesses, and what it leaves in the output block -/

abbrev rVg : Rect S1x144x128 := Rect.unit (s := S1x144x128) ![0, 0, 0] S1x144x128.size inb_S1x144x128_S1x144x128_0_0_0
abbrev rTheta : Rect S64x144 := Rect.unit (s := S64x144) ![0, 0] S64x144.size inb_S64x144_S64x144_0_0
abbrev rScale : Rect S1x1 := Rect.unit (s := S1x1) ![0, 0] S1x1.size inb_S1x1_S1x1_0_0
abbrev rOut : Rect S1x64x128 := Rect.unit (s := S1x64x128) ![0, 0, 0] S1x64x128.size inb_S1x64x128_S1x64x128_0_0_0

/-- The output block after the body, from the three input blocks: its one store — the sum over the 144 rows, scaled —
    laid over whatever the buffer held, which the store covers. -/
def blockOut (x0 : Vec F S1x144x128 .f32) (x1 : Vec F S64x144 .f32) (x2 : Vec F S1x1 .f32) : Vec F S1x64x128 .f32 :=
  View.canon [⟨rOut, k0_pay1 (k0_pay2 (View.ld x0 rVg) (View.ld x1 rTheta)) (View.ld x2 rScale)⟩]

/-- The one store is of the whole block. -/
theorem blockOut_cover (p0 : Vec F S1x64x128 .f32) (y : S1x64x128.Idx) :
    ∃ pc ∈ ([⟨rOut, p0⟩] : List (View.Piece (Elt F) S1x64x128 .f32)), y ∈ pc.1.set :=
  View.cover_of_tiled [⟨rOut, p0⟩] S1x64x128.size (by rfl) y

/-! ## The body's triple -/

set_option maxHeartbeats 1000000 in
/-- The body on whole buffers — the three inputs' at contents `x0 x1 x2`, the output's at anything — runs to its end
    leaving the inputs' as they were and the output's at `blockOut x0 x1 x2`. (It also loads the output buffer before
    storing into it; the loaded value is used nowhere.) -/
theorem sound_kernel (c : Dev nD) (E : Set ℕ) (i : grid0.Coords)
    (arg2 : Memref sig .tc .vmem S1x144x128 .f32) (harg2 : arg2.IsWhole) (arg3 : Memref sig .tc .vmem S64x144 .f32) (harg3 : arg3.IsWhole)
    (arg4 : Memref sig .tc .vmem S1x1 .f32) (harg4 : arg4.IsWhole) (arg5 : Memref sig .tc .vmem S1x64x128 .f32) (harg5 : arg5.IsWhole)
    (x0 : Vec F S1x144x128 .f32) (x1 : Vec F S64x144 .f32) (x2 : Vec F S1x1 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (blockOut x0 x1 x2)) -∗ K ⟨⟩))
      ⊢ wp frame (wpE (defs₀ (F := F)) Variants.none c none) E (cc0__ekv_kernel i arg2 harg2 arg3 harg3 arg4 harg4 arg5 harg5) K := by
  simp only [cc0__ekv_kernel_eq_skeleton]; unfold cc0__ekv_kernel_skel
  simp only [k0_part1_eq_skeleton]
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (blockOut_cover _)

/-! ## The proof data of the launch -/

/-- On core `c`: the arrays as the launch finds them; after the body at point `t` each input's buffer at its block and
    the output's at `blockOut` of the three input blocks; nothing kept between points but what the body never touches;
    nothing owed; whole buffers. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blockOut (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_out (c : Dev nD) (t : Fin cfg0.N) :
    (dats m 0 c).after 3 t = blockOut (iblk m c 0 t) (iblk m c 1 t) (iblk m c 2 t) := by dsimp only [dats]

theorem before0 (c : Dev nD) (t : Fin cfg0.N) (d) : (dats m 0 c).before 0 t d = iblk m c 0 t :=
  before_in0 m (dats m 0 c) (A_eq m c 0) (after_in0 m c) t d
theorem before1 (c : Dev nD) (t : Fin cfg0.N) (d) : (dats m 0 c).before 1 t d = iblk m c 1 t :=
  before_in1 m (dats m 0 c) (A_eq m c 1) (after_in1 m c) t d
theorem before2 (c : Dev nD) (t : Fin cfg0.N) (d) : (dats m 0 c).before 2 t d = iblk m c 2 t :=
  before_in2 m (dats m 0 c) (A_eq m c 2) (after_in2 m c) t d

/-! ## The body at a grid point -/

/-- What the body is handed at point `t`: the invariant, nothing owed, and each window's current buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: its input buffers hold the point's blocks, so the triple applies; the invariant and the
    owed-nothing pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after_in0, after_in1, after_in2, after_out]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run, and the frame -/

set_option backward.isDefEq.respectTransparency.types false in
/-- From any memory with zero counters every weakly fair execution of @main terminates, nothing faulting, with each array
    of the launch at what the proof data computes (an input as found, the output overwritten block by block by what the
    body left) and every other buffer as the reshape after the launch leaves it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The three arguments end as launched: `x` and the scale are no array of the launch and no host operation writes
    them; the thresholds are an input array of the launch, which ends as found, and no host operation writes it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m (dats m) c),
     ((h c).1 1).trans ((((dats m) 0 c).arrAt_in 1 rfl _).trans ((A_eq m c 1).trans (V_main_arg1 m c))),
     ((h c).2 main_arg2 (Pipeline.mem_restRefs_of main_arg2 (by decide) (by decide))).trans (W_main_arg2 m (dats m) c)⟩) (run_main m ρ)

end Cert.KernelIdeal.Region

end
-- ==== Proof.Currents.lean ====
/-
  The value both programs compute, as one function.

  With `v` an unfolded activation and `t` a threshold, the current of one (output channel, patch entry, position) is
      max 0 (α · (f((v − t) / d)² − f(((v − t) − V_D) / d)²)),   f(a) = log(1 + exp(clip(a, −50, 20))),
  the thresholds first clipped to [1, 8]; an output entry is the sum of the currents over the 144 patch entries, times R,
  times the scale. Every constant is kept as the 32-bit word the programs print — the same word on both sides is never
  evaluated. All operations are the exact ones on the extended reals.
-/
import Idealize.ShloMosaic.PureOps.Ideal
import Idealize.ShloMosaic.PureOps.Ideal.Laws
import Idealize.ShloMosaic.Lib.ValueIdx

noncomputable section

namespace Cert.Ekv

open Idealize.ShloMosaic Idealize.ShloMosaic.ValueIdx

/-- A 32-bit float word as the extended real it denotes. -/
abbrev word (b : BitVec 32) : EReal := Ideal.ofBits .f32 b

/-- A threshold clipped to [1, 8]. -/
def thr (t : EReal) : EReal := min (word 0x41000000#32) (max (word 0x3F800000#32) t)

/-- `log(1 + exp a)` of `a` clipped to [−50, 20], squared. -/
def softSq (a : EReal) : EReal :=
  Ideal.log1p (Ideal.exp (min (word 0x41A00000#32) (max (word 0xC2480000#32) a)))
    * Ideal.log1p (Ideal.exp (min (word 0x41A00000#32) (max (word 0xC2480000#32) a)))

/-- One current: from an unfolded activation `v` and a clipped threshold `t`. -/
def current (v t : EReal) : EReal :=
  max (word 0x00000000#32)
    (word 0x3D666666#32 * (softSq (Ideal.div (v - t) (word 0x3D99999A#32))
      - softSq (Ideal.div ((v - t) - word 0x3DCCCCCD#32) (word 0x3D99999A#32))))

/-- The result before its last reshape, over [8, 64, 1024]: at (b, o, l) the sum over the 144 patch entries `k` of the
    current of activation (b, k, l) against threshold (o, k), times R, times the scale `s`. -/
def result (vg : (⟨3, ![8, 144, 1024]⟩ : Shape).Idx → EReal) (th : (⟨2, ![64, 144]⟩ : Shape).Idx → EReal) (s : EReal) :
    (⟨3, ![8, 64, 1024]⟩ : Shape).Idx → EReal := fun i =>
  ((∑ k : Fin 144, current (vg (ix3 (⟨(i 0).val, (i 0).isLt⟩ : Fin 8) k (⟨(i 2).val, (i 2).isLt⟩ : Fin 1024)))
      (thr (th (ix2 (⟨(i 1).val, (i 1).isLt⟩ : Fin 64) k)))) * word 0x3DCCCCCD#32) * s

theorem result_apply (vg : (⟨3, ![8, 144, 1024]⟩ : Shape).Idx → EReal) (th : (⟨2, ![64, 144]⟩ : Shape).Idx → EReal) (s : EReal)
    (b : Fin 8) (o : Fin 64) (l : Fin 1024) :
    result vg th s (ix3 b o l)
      = ((∑ k : Fin 144, current (vg (ix3 b k l)) (thr (th (ix2 o k)))) * word 0x3DCCCCCD#32) * s := rfl

end Cert.Ekv

end
-- ==== Proof.BlockValue.lean ====
/-
  The body's one store, read at an entry.

  At a grid point the body holds a [1, 144, 128] block `x0` of unfolded activations, the [64, 144] thresholds `x1` and the
  [1, 1] scale `x2`. It lays the activations along a new leading axis of 64 and the clipped thresholds along a new
  trailing axis of 128, forms the 64 × 144 × 128 currents entry by entry, sums them over the middle axis, and scales.
  So entry (0, o, j) of what it stores is the sum over the 144 rows `k` of the current of `x0 (0, k, j)` against the clipped
  `x1 (o, k)`, times R, times `x2 (0, 0)`.
-/
import proofs.«169805_j77618648973839_1_alg».proof.Proof.Gen.KernelIdeal.Skeleton
import proofs.«169805_j77618648973839_1_alg».proof.Proof.Currents
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Block

open Cert.KernelIdeal Cert.KernelIdeal.Gen
open Idealize.ShloMosaic Idealize.ShloMosaic.ValueIdx Idealize.ShloMosaic.Pipeline

/-- The activations block given a leading unit axis again and repeated along 64: entry (o, k, j) is entry (0, k, j). -/
theorem alongChannels (x0 : S1x144x128.Idx → EReal) (h1 : S1x144x128.ShapeCasts S144x128) (h2 : S144x128.ShapeCasts S1x144x128)
    (hb : S1x144x128.Broadcasts S64x144x128) (o : Fin 64) (k : Fin 144) (j : Fin 128) :
    broadcastTo S64x144x128 (shapeCast S1x144x128 (shapeCast S144x128 x0 h1) h2) hb (ix3 o k j) = x0 (ix3 (0 : Fin 1) k j) := by
  rw [shapeCast_shapeCast]
  exact broadcastTo_apply x0 hb (ix3 o k j) (ix3 (0 : Fin 1) k j) (fun a => match a with
    | ⟨0, _⟩ => by show (0 : Nat) = if (1 : Nat) = 1 then 0 else o.val; rw [if_pos rfl]
    | ⟨1, _⟩ => by show k.val = if (144 : Nat) = 1 then 0 else k.val; rw [if_neg (by decide)]
    | ⟨2, _⟩ => by show j.val = if (128 : Nat) = 1 then 0 else j.val; rw [if_neg (by decide)])

/-- A [64, 144] matrix given a trailing unit axis and repeated along 128: entry (o, k, j) is entry (o, k). -/
theorem alongPositions (y : S64x144.Idx → EReal) (hs : S64x144.ShapeCasts S64x144x1) (hb : S64x144x1.Broadcasts S64x144x128)
    (o : Fin 64) (k : Fin 144) (j : Fin 128) :
    broadcastTo S64x144x128 (shapeCast S64x144x1 y hs) hb (ix3 o k j) = y (ix2 o k) := by
  refine (broadcastTo_apply (shapeCast S64x144x1 y hs) hb (ix3 o k j) (ix3 o k (0 : Fin 1)) (fun a => match a with
    | ⟨0, _⟩ => by show o.val = if (64 : Nat) = 1 then 0 else o.val; rw [if_neg (by decide)]
    | ⟨1, _⟩ => by show k.val = if (144 : Nat) = 1 then 0 else k.val; rw [if_neg (by decide)]
    | ⟨2, _⟩ => by show (0 : Nat) = if (1 : Nat) = 1 then 0 else j.val; rw [if_pos rfl])).trans ?_
  exact shapeCast_apply y hs (ix3 o k (0 : Fin 1)) (ix2 o k) (by
    rw [Shape.rowMajor_val_two, Shape.rowMajor_val_three]
    show o.val * 144 + k.val = (o.val * 144 + k.val) * 1 + 0
    omega)

/-- The sum over the middle axis of a [64, 144, 128] array, at (o, j): the sum over `k` of entry (o, k, j). -/
theorem sumRows (src : FVec Ideal S64x144x128 .f32) (h : S64x144x128.Reduces [1] S64x128) (hφ : FKind.Formats .f32)
    (hacc : (0x00000000#32 : BitVec 32) = FKind.add.neutral .f32 hφ) (o : Fin 64) (j : Fin 128) :
    multiReduction .add [1] S64x128 src 0x00000000#32 h hφ hacc (ix2 o j) = ∑ k : Fin 144, src (ix3 o k j) := by
  refine (Ideal.multiReduction_add_single src 0x00000000#32 h hφ hacc (ix2 o j)).trans ?_
  refine Finset.sum_congr rfl fun k _ => ?_
  exact congrArg src (funext fun a => Fin.ext (by match a with | ⟨0, _⟩ => rfl | ⟨1, _⟩ => rfl | ⟨2, _⟩ => rfl))

/-- The summed currents: entry (o, j) of the body's reduction. -/
theorem summed_apply (x0 : Vec Ideal S1x144x128 .f32) (x1 : Vec Ideal S64x144 .f32) (o : Fin 64) (j : Fin 128) :
    k0_pay2 (F := Ideal) x0 x1 (ix2 o j)
      = ∑ k : Fin 144, Ekv.current (x0 (ix3 (0 : Fin 1) k j)) (Ekv.thr (x1 (ix2 o k))) := by
  unfold k0_pay2
  refine (sumRows _ _ _ _ o j).trans ?_
  refine Finset.sum_congr rfl fun k _ => ?_
  have hA := alongChannels x0 Facts₀.shapeCasts_S1x144x128_S144x128 Facts₀.shapeCasts_S144x128_S1x144x128
    Facts₀.broadcasts_S1x144x128_S64x144x128 o k j
  have hB : broadcastTo S64x144x128 (shapeCast S64x144x1
        (minimumf (broadcast S64x144 (Scalar.ofBits (F := Ideal) .f32 0x41000000#32))
          (maximumf (broadcast S64x144 (Scalar.ofBits (F := Ideal) .f32 0x3F800000#32)) x1))
        Facts₀.shapeCasts_S64x144_S64x144x1) Facts₀.broadcasts_S64x144x1_S64x144x128 (ix3 o k j)
      = Ekv.thr (x1 (ix2 o k)) :=
    (alongPositions _ _ _ o k j).trans rfl
  unfold Ekv.current Ekv.softSq
  rw [← hA, ← hB]
  rfl

/-- Entry (0, o, j) of the stored block. -/
theorem stored_apply (x0 : Vec Ideal S1x144x128 .f32) (x1 : Vec Ideal S64x144 .f32) (x2 : Vec Ideal S1x1 .f32)
    (o : Fin 64) (j : Fin 128) :
    k0_pay1 (F := Ideal) (k0_pay2 x0 x1) x2 (ix3 (0 : Fin 1) o j)
      = ((∑ k : Fin 144, Ekv.current (x0 (ix3 (0 : Fin 1) k j)) (Ekv.thr (x1 (ix2 o k)))) * Ekv.word 0x3DCCCCCD#32)
          * x2 (ix2 (0 : Fin 1) (0 : Fin 1)) := by
  unfold k0_pay1
  refine (shapeCast_ab_1ab_apply _ _ (0 : Fin 1) o j).trans ?_
  rw [← summed_apply x0 x1 o j]
  exact congrArg (fun z => (k0_pay2 (F := Ideal) x0 x1 (ix2 o j) * Ekv.word 0x3DCCCCCD#32) * x2 z)
    (funext fun a => Fin.ext (by match a with | ⟨0, _⟩ => rfl | ⟨1, _⟩ => rfl))

end Cert.KernelIdeal.Block

end
-- ==== Proof.IdealValue.lean ====
/-
  The whole result array of the idealized kernel, and its run.

  Grid point (b, l) reads block (b, 0, l) of the unfolded activations — rows 0..143, columns 128·l .. 128·l + 127 of
  batch b —, the whole threshold matrix and the one scale entry, and writes block (b, 0, l) of the result — channels
  0..63, columns 128·l .. 128·l + 127 of batch b. Entry (0, o, j) of what it writes is the summed, scaled currents of
  column 128·l + j of batch b against row o of the thresholds: that is entry (b, o, 128·l + j) of ONE function of the
  three arrays (`Ekv.result`), so every written block is the block of that function. The 64 blocks tile the array (entry
  (b, o, p) lies in the block of point (b, p / 128)), so after the run the result array is that function. The reshape
  after the launch then lays it out as [8, 64, 32, 32].
-/
import proofs.«169805_j77618648973839_1_alg».proof.Proof.IdealRegion
import proofs.«169805_j77618648973839_1_alg».proof.Proof.BlockValue
import Idealize.ShloMosaic.Lib.Pipeline.Value
import Idealize.ShloMosaic.Lib.StableHlo.Run

set_option maxRecDepth 16384

noncomputable section

namespace Cert.KernelIdeal.Whole

open Cert.KernelIdeal Cert.KernelIdeal.Gen Cert.KernelIdeal.Region Cert.KernelIdeal.Block
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-- The result array as one function of the three arrays the launch finds: the unfolded activations, the thresholds,
    and the scale's one entry. -/
def whole (c : Dev nD) : S8x64x1024.Idx → EReal :=
  Ekv.result (V m c main_v20 : S8x144x1024.Idx → EReal) (V m c main_arg1 : S64x144.Idx → EReal)
    ((V m c main_v21 : S1x1.Idx → EReal) (ix2 (0 : Fin 1) (0 : Fin 1)))

theorem hz3 : (![0, 0, 0] : Fin 3 → Nat) = fun _ => 0 := funext fun a => by fin_cases a <;> rfl
theorem hz2 : (![0, 0] : Fin 2 → Nat) = fun _ => 0 := funext fun a => by fin_cases a <;> rfl

/-- The index maps over the grid: the activations' block and the result's block sit at the same batch and the same
    column tile, both at row tile 0; the thresholds' and the scale's block never move. -/
theorem idx_facts : ∀ t : Fin cfg0.N,
    win0_0.index t (0 : Fin 3) = win0_3.index t (0 : Fin 3) ∧ win0_0.index t (1 : Fin 3) = 0
    ∧ win0_0.index t (2 : Fin 3) = win0_3.index t (2 : Fin 3) ∧ win0_3.index t (1 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) < 8 ∧ win0_3.index t (2 : Fin 3) < 8 :=
  (by decide +kernel : ∀ t : Fin grid0.N, _)

/-- Every (batch, column tile) is some grid point's. -/
theorem idx_onto : ∀ (q0 : Fin 8) (q2 : Fin 8), ∃ t : Fin cfg0.N, win0_3.index t = ![q0.val, 0, q2.val] :=
  (by decide +kernel : ∀ (q0 : Fin 8) (q2 : Fin 8), ∃ t : Fin grid0.N, win0_3.index t = ![q0.val, 0, q2.val])

section Blocks
variable (c : Dev nD) (t : Fin cfg0.N)

/-- Entry (0, k, j) of the activations' block at `t` is entry (b, k, 128·l + j) of the array. -/
theorem vg_block (b : Fin 8) (l : Fin 1024) (k : Fin 144) (j : Fin 128)
    (hb : b.val = win0_3.index t (0 : Fin 3)) (hl : l.val = win0_3.index t (2 : Fin 3) * 128 + j.val) :
    iblk m c 0 t (ix3 (0 : Fin 1) k j) = (V m c main_v20 : S8x144x1024.Idx → EReal) (ix3 b k l) := by
  obtain ⟨e0, e1, e2, -⟩ := idx_facts t
  show (V m c main_v20 : S8x144x1024.Idx → EReal) (((cfg0.win 0).blk t).view.emb (ix3 (0 : Fin 1) k j)) = _
  refine congrArg (V m c main_v20 : S8x144x1024.Idx → EReal) (funext fun a => Fin.ext ?_)
  match a with
  | ⟨0, _⟩ => show win0_0.index t (0 : Fin 3) * 1 + 1 * 0 = b.val; omega
  | ⟨1, _⟩ => show win0_0.index t (1 : Fin 3) * 144 + 1 * k.val = k.val; omega
  | ⟨2, _⟩ => show win0_0.index t (2 : Fin 3) * 128 + 1 * j.val = l.val; omega

/-- The thresholds' block is the whole matrix. -/
theorem th_block (o : Fin 64) (k : Fin 144) :
    iblk m c 1 t (ix2 o k) = (V m c main_arg1 : S64x144.Idx → EReal) (ix2 o k) := by
  obtain ⟨-, -, -, -, e4, e5, -⟩ := idx_facts t
  show (V m c main_arg1 : S64x144.Idx → EReal) (((cfg0.win 1).blk t).view.emb (ix2 o k)) = _
  refine congrArg (V m c main_arg1 : S64x144.Idx → EReal) (funext fun a => Fin.ext ?_)
  match a with
  | ⟨0, _⟩ => show win0_1.index t (0 : Fin 2) * 64 + 1 * o.val = o.val; omega
  | ⟨1, _⟩ => show win0_1.index t (1 : Fin 2) * 144 + 1 * k.val = k.val; omega

/-- The scale's block is its one entry. -/
theorem sc_block :
    iblk m c 2 t (ix2 (0 : Fin 1) (0 : Fin 1)) = (V m c main_v21 : S1x1.Idx → EReal) (ix2 (0 : Fin 1) (0 : Fin 1)) := by
  obtain ⟨-, -, -, -, -, -, e6, e7, -⟩ := idx_facts t
  show (V m c main_v21 : S1x1.Idx → EReal) (((cfg0.win 2).blk t).view.emb (ix2 (0 : Fin 1) (0 : Fin 1))) = _
  refine congrArg (V m c main_v21 : S1x1.Idx → EReal) (funext fun a => Fin.ext ?_)
  match a with
  | ⟨0, _⟩ => show win0_2.index t (0 : Fin 2) * 1 + 1 * 0 = 0; omega
  | ⟨1, _⟩ => show win0_2.index t (1 : Fin 2) * 1 + 1 * 0 = 0; omega

end Blocks

/-- What point `t` writes back is block `t` of `whole`. -/
theorem flushed_eq (c : Dev nD) (t : Fin cfg0.N) :
    (dats m 0 c).flushed 3 t = ((cfg0.win 3).blk t).view.read (Elt Ideal) (whole m c) := by
  show (cfg0.win 3).cut (grid0.coords t) ((dats m 0 c).after 3 t) = _
  rw [after_out]
  unfold blockOut
  rw [View.canon_unit_zero hz3]
  simp only [View.ld_unit_zero (S := S1x144x128) hz3, View.ld_unit_zero (S := S64x144) hz2, View.ld_unit_zero (S := S1x1) hz2]
  obtain ⟨-, -, -, e3, -, -, -, -, e8, e9⟩ := idx_facts t
  funext y
  obtain ⟨u, o, j, rfl⟩ : ∃ (u : Fin 1) (o : Fin 64) (j : Fin 128), y = ix3 u o j := ⟨y 0, y 1, y 2, eq_ix3 y⟩
  obtain rfl : u = 0 := Subsingleton.elim _ _
  refine (stored_apply (iblk m c 0 t) (iblk m c 1 t) (iblk m c 2 t) o j).trans ?_
  have hj : j.val < 128 := j.isLt
  have hemb : ((cfg0.win 3).blk t).view.emb (ix3 (0 : Fin 1) o j)
      = ix3 (⟨win0_3.index t (0 : Fin 3), e8⟩ : Fin 8) o (⟨win0_3.index t (2 : Fin 3) * 128 + j.val, by omega⟩ : Fin 1024) := by
    funext a; apply Fin.ext
    match a with
    | ⟨0, _⟩ => show win0_3.index t (0 : Fin 3) * 1 + 1 * 0 = win0_3.index t (0 : Fin 3); omega
    | ⟨1, _⟩ => show win0_3.index t (1 : Fin 3) * 64 + 1 * o.val = o.val; omega
    | ⟨2, _⟩ => show win0_3.index t (2 : Fin 3) * 128 + 1 * j.val = win0_3.index t (2 : Fin 3) * 128 + j.val; omega
  show _ = whole m c (((cfg0.win 3).blk t).view.emb (ix3 (0 : Fin 1) o j))
  rw [hemb]
  unfold whole
  rw [Ekv.result_apply, sc_block m c t]
  refine congrArg (fun z => (z * Ekv.word 0x3DCCCCCD#32) * _) (Finset.sum_congr rfl fun k _ => ?_)
  rw [vg_block m c t ⟨win0_3.index t (0 : Fin 3), e8⟩ ⟨win0_3.index t (2 : Fin 3) * 128 + j.val, by omega⟩ k j rfl rfl,
    th_block m c t o k]

/-- An entry of the result array is in point `t`'s block iff each coordinate is in the block's range. -/
theorem mem_blk (t : Fin cfg0.N) (i : S8x64x1024.Idx) :
    i ∈ ((cfg0.win 3).blk t).view.set ↔ ∀ a : Fin 3, win0_3.index t a * S1x64x128.size a ≤ (i a).val
      ∧ (i a).val < win0_3.index t a * S1x64x128.size a + S1x64x128.size a := by
  show i ∈ ((View.whole main_v22).slice (win0_3.rect t)).set ↔ _
  rw [View.set_slice_whole, Rect.mem_set_unit]
  exact Iff.rfl

/-- The result array after the launch is `whole`: every block written is its block, and the blocks tile the array. -/
theorem final_out (c : Dev nD) : (dats m 0 c).arrAt 3 cfg0.N = whole m c :=
  (dats m 0 c).arrAt_eq_of_cover 3 (whole m c) (fun t _ => flushed_eq m c t) fun i => by
    have h0 : (i 0).val < 8 := (i 0).isLt
    have h1 : (i 1).val < 64 := (i 1).isLt
    have h2 : (i 2).val < 1024 := (i 2).isLt
    obtain ⟨t, ht⟩ := idx_onto ⟨(i 0).val, h0⟩ ⟨(i 2).val / 128, by omega⟩
    have q0 : win0_3.index t (0 : Fin 3) = (i 0).val := congrFun ht 0
    have q1 : win0_3.index t (1 : Fin 3) = 0 := congrFun ht 1
    have q2 : win0_3.index t (2 : Fin 3) = (i 2).val / 128 := congrFun ht 2
    refine ⟨t, flush0_3 t, ?_⟩
    rw [mem_blk]
    intro a
    match a with
    | ⟨0, _⟩ => show win0_3.index t (0 : Fin 3) * 1 ≤ (i 0).val ∧ (i 0).val < win0_3.index t (0 : Fin 3) * 1 + 1; omega
    | ⟨1, _⟩ => show win0_3.index t (1 : Fin 3) * 64 ≤ (i 1).val ∧ (i 1).val < win0_3.index t (1 : Fin 3) * 64 + 64; omega
    | ⟨2, _⟩ => show win0_3.index t (2 : Fin 3) * 128 ≤ (i 2).val ∧ (i 2).val < win0_3.index t (2 : Fin 3) * 128 + 128; omega

/-- After the reshape that follows the launch, the result buffer holds `whole` laid out as [8, 64, 32, 32]. -/
theorem tail_result (c : Dev nD) :
    Pipeline.afterTail₀ cfgs (dats m) 0 (V0 m) [hostOps1] c main_v23
      = shapeCast S8x64x32x32 (whole m c) Facts₀.shapeCasts_S8x64x1024_S8x64x32x32 := by
  unfold Pipeline.afterTail₀
  show StableHlo.after hostOps1 _ (Proc.devRef .tc main_v23) = _
  after_results
  have e : Pipeline.withArrays (cfgs 0).spec c (V0 m c) (fun w => (dats m 0 c).arrAt w (cfgs 0).N) (Proc.tc.devRef main_v22)
      = whole m c :=
    (Pipeline.withArrays_arr spec0 launch0.win.arr_inj c _ _ 3).trans (final_out m c)
  rw [e]
  rfl

/-- The scale's one entry, as the launch finds it, is the scale argument: the [1, 1] array is the scalar reshaped. -/
theorem V_scale (c : Dev nD) :
    (V m c main_v21 : S1x1.Idx → EReal) (ix2 (0 : Fin 1) (0 : Fin 1))
      = (m ((c : Thread nD τ).loc main_arg2) : S_.Idx → EReal) ix0 := by
  have e : (V m c main_v21 : S1x1.Idx → EReal)
      = shapeCast S1x1 (m ((c : Thread nD τ).loc main_arg2) : S_.Idx → EReal) Facts₀.shapeCasts_S_S1x1 := by
    dsimp only [V, V0]
    simp only [hostOps0, hostOps0_1, hostOps0_2, List.flatten_cons, List.flatten_nil, List.append_nil, List.cons_append,
      List.nil_append]
    after_results
    rfl
  rw [e]
  unfold shapeCast
  exact congrArg (m ((c : Thread nD τ).loc main_arg2) : S_.Idx → EReal) (eq_ix0 _)

/-- The run of the idealized kernel with its result named: the result buffer ends at `whole` laid out as
    [8, 64, 32, 32], the three arguments as launched. -/
theorem run : θ_run defs (onTc (τ := τ) (main (F := Ideal))) ⟨m, fun _ => 0, ρ⟩ (fun r => ∀ c : Dev nD,
      r.2.mem ((c.tc : Thread nD τ).loc main_v23)
        = shapeCast S8x64x32x32 (whole m c) Facts₀.shapeCasts_S8x64x1024_S8x64x32x32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v23 (Pipeline.mem_restRefs_of main_v23 (by decide) (by decide))).trans (tail_result m c),
     ((h c).2 main_arg0 (Pipeline.mem_restRefs_of main_arg0 (by decide) (by decide))).trans (W_main_arg0 m (dats m) c),
     ((h c).1 1).trans ((((dats m) 0 c).arrAt_in 1 rfl _).trans ((A_eq m c 1).trans (V_main_arg1 m c))),
     ((h c).2 main_arg2 (Pipeline.mem_restRefs_of main_arg2 (by decide) (by decide))).trans (W_main_arg2 m (dats m) c)⟩)
    (run_main m ρ)

end Cert.KernelIdeal.Whole

end
-- ==== Proof.RefValue.lean ====
/-
  The reference's value, as the same function.

  The reference clips the thresholds, lays the unfolded activations along a new axis of 64 channels and the thresholds
  along the batch and position axes, forms the 8 × 64 × 144 × 1024 currents entry by entry, sums them over the 144 patch
  entries from zero, and multiplies by R and by the scale. Read at (b, o, l) this is the sum over `k` of the current of
  activation (b, k, l) against the clipped threshold (o, k), times R, times the scale — `Ekv.result` of the reference's
  own unfolded activations — the zero the sum starts from adding nothing.
-/
import proofs.«169805_j77618648973839_1_alg».proof.Proof.Gen.ReferenceIdeal.Read
import proofs.«169805_j77618648973839_1_alg».proof.Proof.Currents

noncomputable section

namespace Cert.ReferenceIdeal.RefValue

open Cert.ReferenceIdeal Cert.ReferenceIdeal.Read
open Idealize.ShloMosaic Idealize.ShloMosaic.ValueIdx

variable (x0 : (⟨S8x16x32x32, .f32⟩ : BufTy).Contents (Elt Ideal)) (x1 : (⟨S64x144, .f32⟩ : BufTy).Contents (Elt Ideal))
  (x2 : (⟨S_, .f32⟩ : BufTy).Contents (Elt Ideal))

section Indices
variable (b : Fin 8) (o : Fin 64) (l : Fin 1024) (k : Fin 144)

/-- Where entry (b, o, k, l) of the currents reads the activations: at (b, k, l), along either of the two paths. -/
theorem at_vg : idx_main_v22 (idx_main_v24 (idx_main_v48 (ix3 b o l) k)) = ix3 b k l :=
  funext fun a => Fin.ext (by match a with | ⟨0, _⟩ => rfl | ⟨1, _⟩ => rfl | ⟨2, _⟩ => rfl)
theorem at_vg' : idx_main_v22 (idx_main_v33 (idx_main_v48 (ix3 b o l) k)) = ix3 b k l :=
  funext fun a => Fin.ext (by match a with | ⟨0, _⟩ => rfl | ⟨1, _⟩ => rfl | ⟨2, _⟩ => rfl)
/-- And the thresholds: at (o, k). -/
theorem at_th : idx_main_v23 (idx_main_v25 (idx_main_v48 (ix3 b o l) k)) = ix2 o k :=
  funext fun a => Fin.ext (by match a with | ⟨0, _⟩ => rfl | ⟨1, _⟩ => rfl)
theorem at_th' : idx_main_v23 (idx_main_v34 (idx_main_v48 (ix3 b o l) k)) = ix2 o k :=
  funext fun a => Fin.ext (by match a with | ⟨0, _⟩ => rfl | ⟨1, _⟩ => rfl)
end Indices

/-- One rectified current of the reference, at (b, o, k, l). -/
theorem current_apply (b : Fin 8) (o : Fin 64) (l : Fin 1024) (k : Fin 144) :
    val_main_v47 (F := Ideal) x0 x1 (idx_main_v48 (ix3 b o l) k)
      = Ekv.current (val_main_v21 (F := Ideal) x0 (ix3 b k l)) (Ekv.thr (x1 (ix2 o k))) := by
  simp only [val_main_v47_apply, val_main_call4_v1_apply, val_main_call4_v0_apply, val_main_cst_9_apply, val_main_v46_apply, val_main_v45_apply, val_main_cst_8_apply, val_main_v44_apply, val_main_v32_apply, val_main_v43_apply, val_main_v31_apply, val_main_v30_apply, val_main_v29_apply, val_main_call2_v4_apply, val_main_call2_v3_apply, val_main_cst_3_apply, val_main_call2_v2_apply, val_main_call2_v1_apply, val_main_call2_v0_apply, val_main_cst_2_apply, val_main_v28_apply, val_main_v26_apply, val_main_v27_apply, val_main_cst_1_apply, val_main_v24_apply, val_main_v25_apply, val_main_v22_apply, val_main_v23_apply, val_main_v0_apply, val_main_call0_v4_apply, val_main_call0_v3_apply, val_main_cst_0_apply, val_main_call0_v2_apply, val_main_call0_v1_apply, val_main_call0_v0_apply, val_main_cst_apply, val_main_v42_apply, val_main_v41_apply, val_main_v40_apply, val_main_call3_v4_apply, val_main_call3_v3_apply, val_main_cst_7_apply, val_main_call3_v2_apply, val_main_call3_v1_apply, val_main_call3_v0_apply, val_main_cst_6_apply, val_main_v39_apply, val_main_v37_apply, val_main_v38_apply, val_main_cst_5_apply, val_main_v35_apply, val_main_v36_apply, val_main_cst_4_apply, val_main_v33_apply, val_main_v34_apply, at_vg, at_vg', at_th, at_th']
  rfl

/-- The reference before its last reshape is `Ekv.result` of its unfolded activations, the thresholds and the scale. -/
theorem stage_eq :
    val_main_v52 (F := Ideal) x0 x1 x2 = Ekv.result (val_main_v21 (F := Ideal) x0) x1 (x2 ix0) := by
  funext i
  obtain ⟨b, o, l, rfl⟩ : ∃ (b : Fin 8) (o : Fin 64) (l : Fin 1024), i = ix3 b o l := ⟨i 0, i 1, i 2, eq_ix3 i⟩
  rw [Ekv.result_apply, val_main_v52_apply, val_main_v50_apply, val_main_v48_apply, val_main_v49_apply, val_main_v51_apply,
    val_main_cst_11_apply, val_main_cst_10_apply]
  simp only [current_apply]
  simp only [Ideal.mulf_def, Ideal.ofBits_def, Ideal.ofBits_zero_f32, zero_add]

end Cert.ReferenceIdeal.RefValue

end
-- ==== Proof.Bridge.lean ====
/-
  The five claims.

  Both frames of the kernel are its run around the launch with the result forgotten; the reference's frame is its run
  with the result forgotten; nothing was rewritten in idealizing the kernel, so there is nothing to preserve. For the
  equality of results: the idealized kernel's result buffer ends at `Ekv.result` of the unfolded activations, the
  thresholds and the scale as its launch finds them, laid out as [8, 64, 32, 32]; the reference's ends at `Ekv.result` of
  its own unfolded activations, thresholds and scale, laid out the same way. The two programs unfold the activations by
  the same host operations — pad by one zero on each side of the two spatial axes, the nine shifted windows, a unit axis
  each, joined, flattened —, so from arguments that agree the two are one term; the thresholds are the argument on both
  sides; the [1, 1] scale the kernel reads is the scalar argument at its one entry.
-/
import proofs.«169805_j77618648973839_1_alg».proof.Defs
import proofs.«169805_j77618648973839_1_alg».proof.Proof.Gen.Kernel
import proofs.«169805_j77618648973839_1_alg».proof.Proof.Gen.KernelIdeal
import proofs.«169805_j77618648973839_1_alg».proof.Proof.Gen.ReferenceIdeal
import proofs.«169805_j77618648973839_1_alg».proof.Proof.Gen.ReferenceIdeal.Run
import proofs.«169805_j77618648973839_1_alg».proof.Proof.Gen.ReferenceIdeal.Read
import proofs.«169805_j77618648973839_1_alg».proof.Proof.Gen.Pre_finite_inputs
import proofs.«169805_j77618648973839_1_alg».proof.Proof.BitsRegion
import proofs.«169805_j77618648973839_1_alg».proof.Proof.IdealValue
import proofs.«169805_j77618648973839_1_alg».proof.Proof.RefValue

set_option maxRecDepth 16384

noncomputable section

open Idealize.ShloMosaic Idealize.ShloMosaic.TcCoe Idealize.ShloMosaic.ValueIdx Idealize.ShloMosaic.StableHlo
open Idealize.SL Idealize.SL.Sem

namespace Cert.Proof.Ekv

section Unfolded
open Cert.KernelIdeal Cert.KernelIdeal.Gen Cert.KernelIdeal.Region

set_option maxHeartbeats 4000000 in
/-- The unfolded activations the kernel's launch finds are the reference's stage of the same argument: the same host
    operations, in the same order, of `x`. -/
theorem unfolded_eq (m : (ℓ : Loc nD τ sig) → Buf (Elt Ideal) ℓ) (c : Dev nD) :
    (V m c main_v20 : S8x144x1024.Idx → EReal)
      = Cert.ReferenceIdeal.Read.val_main_v21 (F := Ideal) (m ((c : Thread nD τ).loc main_arg0)) := by
  dsimp only [V, V0]
  simp only [hostOps0, hostOps0_1, hostOps0_2, List.flatten_cons, List.flatten_nil, List.append_nil, List.cons_append,
    List.nil_append]
  after_results
  rfl

end Unfolded

theorem frame_k : Cert.frame_Kernel := fun m ρ _ => Cert.Kernel.Region.frame m ρ
theorem frame_ki : Cert.frame_KernelIdeal := fun m ρ _ => Cert.KernelIdeal.Region.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both idealized programs end with the result buffer at one array. -/
theorem algebraic : Cert.algebraic_KernelIdeal_ReferenceIdeal := by
  intro m ρ m' ρ' _ hagree
  refine ⟨fun c => shapeCast Cert.KernelIdeal.S8x64x32x32 (Cert.KernelIdeal.Whole.whole m c)
    Cert.KernelIdeal.Facts₀.shapeCasts_S8x64x1024_S8x64x32x32, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v53_eq, (hagree c).1, (hagree c).2.1, (hagree c).2.2]
  unfold Cert.ReferenceIdeal.Read.val_main_v53
  rw [Cert.ReferenceIdeal.RefValue.stage_eq]
  unfold Cert.KernelIdeal.Whole.whole
  beta_reduce
  rw [unfolded_eq m c, Cert.KernelIdeal.Region.V_main_arg1 m c, Cert.KernelIdeal.Whole.V_scale m c]

end Cert.Proof.Ekv

end
-- ==== Proof.lean ====
/-
  The certificate of the EKV crossbar layer: a Pallas kernel that, per batch and per tile of 128 output positions, forms
  the 64 × 144 × 128 currents max 0 (α (f((v − θ)/d)² − f((v − θ − V_D)/d)²)) of the unfolded activations `v` against the
  clipped thresholds `θ`, sums them over the 144 patch entries and scales by R and by the scale, against the jnp
  reference that forms all 8 × 64 × 144 × 1024 currents at once. On the extended reals the two compute the same sums of
  the same terms (Proof/Currents.lean states the function; Proof/IdealValue.lean and Proof/RefValue.lean show each
  program ends at it; Proof/Bridge.lean puts the claims together).
-/
import proofs.«169805_j77618648973839_1_alg».proof.Defs
import proofs.«169805_j77618648973839_1_alg».proof.Proof.Gen.Kernel
import proofs.«169805_j77618648973839_1_alg».proof.Proof.Gen.Kernel.Skeleton
import proofs.«169805_j77618648973839_1_alg».proof.Proof.Gen.Kernel.Launch
import proofs.«169805_j77618648973839_1_alg».proof.Proof.Gen.Kernel.Points
import proofs.«169805_j77618648973839_1_alg».proof.Proof.Gen.KernelIdeal
import proofs.«169805_j77618648973839_1_alg».proof.Proof.Gen.KernelIdeal.Skeleton
import proofs.«169805_j77618648973839_1_alg».proof.Proof.Gen.KernelIdeal.Launch
import proofs.«169805_j77618648973839_1_alg».proof.Proof.Gen.KernelIdeal.Points
import proofs.«169805_j77618648973839_1_alg».proof.Proof.Gen.ReferenceIdeal
import proofs.«169805_j77618648973839_1_alg».proof.Proof.Gen.ReferenceIdeal.Run
import proofs.«169805_j77618648973839_1_alg».proof.Proof.Gen.ReferenceIdeal.Read
import proofs.«169805_j77618648973839_1_alg».proof.Proof.Gen.Pre_finite_inputs
import proofs.«169805_j77618648973839_1_alg».proof.Proof.Bridge
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Ekv.frame_k, Cert.Proof.Ekv.frame_ki, Cert.Proof.Ekv.frame_ri, Cert.Proof.Ekv.preserves, Cert.Proof.Ekv.algebraic⟩

end Cert.Proof

end
